-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S1024x256x256 : Shape := ⟨3, ![1024, 256, 256]⟩
abbrev S16x256x256 : Shape := ⟨3, ![16, 256, 256]⟩

abbrev nBuf : Space → Nat
  | .hbm => 4
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S1024x256x256, .f32⟩
  | .hbm, ⟨2, _⟩ => ⟨S1024x256x256, .f32⟩
  | .hbm, ⟨3, _⟩ => ⟨S16x64x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x64x256x256_S1024x256x256 : S16x64x256x256.ShapeCasts S1024x256x256
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  rotates_S16x256x256_d2 : S16x256x256.Rotates 2 none
  iota_S16x256x256_d2_w32 : S16x256x256.Iotas .tc 32 [2]
  rotates_S16x256x256_d1 : S16x256x256.Rotates 1 none
  iota_S16x256x256_d1_w32 : S16x256x256.Iotas .tc 32 [1]
  shapeCasts_S1024x256x256_S16x64x256x256 : S1024x256x256.ShapeCasts S16x64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S1024x256x256.size a
  hwx0_0 : ∀ i : grid0.Coords, EltTy.bits .f32 = 32 ∨ (Rect.block (s := S1024x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S1024x256x256.size a
  hwx0_1 : ∀ i : grid0.Coords, EltTy.bits .f32 = 32 ∨ (Rect.block (s := S1024x256x256) S16x256x256.size (cc0_transform_1 i) (hinb0_1 i)).WholeWords (EltTy.packing .f32)

variable [Facts₀]

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S_ : Shape := ⟨0, ![]⟩
abbrev S16x64x258x258 : Shape := ⟨4, ![16, 64, 258, 258]⟩

abbrev nBuf : Space → Nat
  | .hbm => 7
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S_, .f32⟩
  | .hbm, ⟨2, _⟩ => ⟨S_, .f32⟩
  | .hbm, ⟨3, _⟩ => ⟨S16x64x258x258, .f32⟩
  | .hbm, ⟨4, _⟩ => ⟨S_, .f32⟩
  | .hbm, ⟨5, _⟩ => ⟨S_, .f32⟩
  | .hbm, ⟨6, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  pads_S16x64x256x256_S16x64x258x258_000_000_110_110 : S16x64x256x256.Pads (![0, 0, 1, 1] : Fin 4 → Nat) ![0, 0, 1, 1] ![0, 0, 0, 0] S16x64x258x258
  h_S_ : 0 < S_.numel
  bcast_S_S_ : S_.BroadcastsInDim S_ (![] : Fin 0 → Fin S_.rank)
  reduceWindows_S16x64x258x258_S16x64x256x256_w1s1p0_0_w1s1p0_0_w3s1p0_0_w3s1p0_0 : S16x64x258x258.ReduceWindows (![1, 1, 3, 3] : Fin 4 → Nat) ![1, 1, 1, 1] ![0, 0, 0, 0] ![0, 0, 0, 0] S16x64x256x256

variable [Facts₀]

class Facts : Prop extends Facts₀ where

variable [Facts]
-- ==== Proof.Erosion.lean ====
/-
  Erosion of one 256 × 256 image by the flat 3 × 3 window, the image's border read as a constant `P`:
  the mathematics the two programs share, over the extended reals and with no program in sight.

  A line of 256 entries is extended by one border entry at each end (`pad1`); a three-tap window minimum along a
  line (`win1`) reads positions k, k+1, k+2 of the extended line, that is entries k-1, k, k+1 of the line. Doing
  this along the columns of every row and then along the rows of the result is the SEPARABLE erosion (`sep`);
  folding the minimum from +∞ over the nine taps of the 3 × 3 window of the image extended on both axes is the
  DIRECT erosion (`win9`). They are the same number: reading an extended line commutes with an entrywise minimum
  (inside, both sides are one entry; on the border, min P P = P), so the separable form is a minimum of the same
  nine taps, and a minimum does not depend on the order or grouping of its arguments, nor on a leading +∞.
  Only the lattice laws of `min` are used: nothing here needs an entry to be finite.
-/
import Idealize.ShloMosaic.PureOps.Ideal
import Idealize.ShloMosaic.Lib.ValueIdx

noncomputable section

namespace Cert.Erosion

open Idealize.ShloMosaic Idealize.ShloMosaic.ValueIdx

/-- A line `f` of 256 entries read at position `k` of the line extended by one border entry at each end: entry
    `k - 1` for `1 ≤ k ≤ 256`, the border value `P` at `k = 0` and `k = 257` (and beyond). -/
def pad1 (f : Fin 256 → EReal) (P : EReal) (k : ℕ) : EReal :=
  if h : 1 ≤ k ∧ k ≤ 256 then f ⟨k - 1, by omega⟩ else P

theorem pad1_in (f : Fin 256 → EReal) (P : EReal) (k : ℕ) (h : 1 ≤ k ∧ k ≤ 256) :
    pad1 f P k = f ⟨k - 1, by omega⟩ := dif_pos h

theorem pad1_out (f : Fin 256 → EReal) (P : EReal) (k : ℕ) (h : ¬(1 ≤ k ∧ k ≤ 256)) : pad1 f P k = P := dif_neg h

/-- Reading the extended line commutes with an entrywise minimum: inside the line both sides are the same entry,
    on the border `P = min P P`. -/
theorem pad1_min (f g : Fin 256 → EReal) (P : EReal) (k : ℕ) :
    pad1 (fun i => min (f i) (g i)) P k = min (pad1 f P k) (pad1 g P k) := by
  unfold pad1
  split
  · rfl
  · exact (min_self P).symm

/-- The three-tap window minimum at entry `k` of a line: entries `k - 1`, `k`, `k + 1`, the centre first. -/
def win1 (f : Fin 256 → EReal) (P : EReal) (k : ℕ) : EReal :=
  min (pad1 f P (k + 1)) (min (pad1 f P k) (pad1 f P (k + 2)))

/-- The separable erosion at row `r`, column `c`: the window minimum along the rows of the window minima along
    the columns. -/
def sep (x : Fin 256 → Fin 256 → EReal) (P : EReal) (r c : ℕ) : EReal :=
  win1 (fun r' => win1 (x r') P c) P r

/-- The image extended by a border of `P` on both axes, read at position (`r`, `c`). -/
def tap (x : Fin 256 → Fin 256 → EReal) (P : EReal) (r c : ℕ) : EReal :=
  pad1 (fun r' => pad1 (x r') P c) P r

/-- The direct erosion: the minimum folded from +∞ over the nine positions of the 3 × 3 window of the extended
    image whose first position is (`r`, `c`), row by row. -/
def win9 (x : Fin 256 → Fin 256 → EReal) (P : EReal) (r c : ℕ) : EReal :=
  (List.finRange 9).foldl (fun acc n => min acc (tap x P (r + n.val / 3) (c + n.val % 3))) ⊤

/-- The nine positions, written out. -/
theorem win9_eq (x : Fin 256 → Fin 256 → EReal) (P : EReal) (r c : ℕ) :
    win9 x P r c = min (min (min (min (min (min (min (min (min ⊤ (tap x P r c)) (tap x P r (c + 1))) (tap x P r (c + 2)))
      (tap x P (r + 1) c)) (tap x P (r + 1) (c + 1))) (tap x P (r + 1) (c + 2)))
      (tap x P (r + 2) c)) (tap x P (r + 2) (c + 1))) (tap x P (r + 2) (c + 2)) := rfl

/-- The separable erosion is a minimum of the same nine taps. -/
theorem sep_eq (x : Fin 256 → Fin 256 → EReal) (P : EReal) (r c : ℕ) :
    sep x P r c = min (min (tap x P (r + 1) (c + 1)) (min (tap x P (r + 1) c) (tap x P (r + 1) (c + 2))))
      (min (min (tap x P r (c + 1)) (min (tap x P r c) (tap x P r (c + 2))))
        (min (tap x P (r + 2) (c + 1)) (min (tap x P (r + 2) c) (tap x P (r + 2) (c + 2))))) := by
  unfold sep win1 tap
  simp only [pad1_min]

/-- THE LAW joining the two programs: the direct and the separable erosion agree, at every position, for every
    image and border value in the extended reals. -/
theorem win9_eq_sep (x : Fin 256 → Fin 256 → EReal) (P : EReal) (r c : ℕ) : win9 x P r c = sep x P r c := by
  rw [win9_eq, sep_eq, min_top_left]
  ac_rfl

/-! ## The two whole-array forms

Every (batch, channel) pair carries one image; flattening the pair into one axis of 16 · 64 = 1024 images changes
nothing within an image. -/

/-- The erosion of a `[16, 64, 256, 256]` array, image by image. -/
def erode4 (P : EReal) (x : (⟨4, ![16, 64, 256, 256]⟩ : Shape).Idx → EReal) :
    (⟨4, ![16, 64, 256, 256]⟩ : Shape).Idx → EReal :=
  fun j => sep (fun r' c' => x (ix4 (j 0) (j 1) r' c')) P (j 2).val (j 3).val

/-- The erosion of a `[1024, 256, 256]` array, image by image. -/
def erode3 (P : EReal) (y : (⟨3, ![1024, 256, 256]⟩ : Shape).Idx → EReal) :
    (⟨3, ![1024, 256, 256]⟩ : Shape).Idx → EReal :=
  fun i => sep (fun r' c' => y (ix3 (i 0) r' c')) P (i 1).val (i 2).val

end Cert.Erosion

end
-- ==== Proof.LibSelectEq.lean ====
/-
  A select on the equality of two 32-bit words, as the `if` on the numbers they hold: what a vector compare of a
  coordinate (`tpu.iota`, a word `BitVec.ofNat 32 k` with k below the axis extent) against a splat constant followed
  by `arith.select` reads as at an index. (The library's `ValueIdx.select_eq0` is the case of a coordinate below 2
  compared with 0.) Two numbers below 2³² have equal 32-bit words iff they are equal.
-/
import Idealize.ShloMosaic.Lib.ValueIdx

namespace Cert.LibSelectEq

open Idealize.ShloMosaic

/-- Two numbers below 2³² with the same 32-bit word are the same number. -/
theorem ofNat_inj {k n : ℕ} (hk : k < 2 ^ 32) (hn : n < 2 ^ 32) (e : BitVec.ofNat 32 k = BitVec.ofNat 32 n) : k = n := by
  have := congrArg BitVec.toNat e
  rw [BitVec.toNat_ofNat, BitVec.toNat_ofNat, Nat.mod_eq_of_lt hk, Nat.mod_eq_of_lt hn] at this
  exact this

/-- A select on the equality of the 32-bit words of two numbers below 2³² is the `if` on the numbers. -/
theorem select_cmpi_eq {α : Type} (k n : ℕ) (hk : k < 2 ^ 32) (hn : n < 2 ^ 32) (A B : α) :
    Scalar.select (IntOp.cmpi .eq (BitVec.ofNat 32 k) (BitVec.ofNat 32 n)) A B = if k = n then A else B := by
  unfold Scalar.select IntOp.cmpi
  by_cases h : k = n
  · subst h; simp
  · have hb : (BitVec.ofNat 32 k == BitVec.ofNat 32 n) = false := beq_false_of_ne fun e => h (ofNat_inj hk hn e)
    rw [if_neg h]
    show (if BitVec.ofBool (BitVec.ofNat 32 k == BitVec.ofNat 32 n) = 1 then A else B) = B
    rw [hb]
    exact if_neg (by decide)

end Cert.LibSelectEq
-- ==== Proof.Body.lean ====
/-
  The kernel's body at an index. One grid point holds 16 images of 256 × 256; the body computes, with whole-block
  vector operations, first along the columns (axis 2) and then along the rows (axis 1) of the result,

      z ↦ min z (min (border where the coordinate is 0, else z rotated by 1)
                      (border where the coordinate is 255, else z rotated by 255)).

  Read at (p, r, c): a rotation by 1 along an axis of 256 reads coordinate (k + 256 - 1) % 256 = k - 1 for k ≥ 1, a
  rotation by 255 reads (k + 256 - 255) % 256 = k + 1 for k ≤ 254, and the two wrapped-around entries (k = 0 and
  k = 255) are exactly the ones the comparison with the coordinate replaces by the border value. So each pass is the
  three-tap window minimum of the line extended by the border value (`colpass_apply`, `rowpass_apply`), and the
  body's stored value is the separable erosion of image p (`pay_apply`).
-/
import proofs.«111050_j86517821212128_2_alg».proof.Proof.Gen.KernelIdeal.Skeleton
import proofs.«111050_j86517821212128_2_alg».proof.Proof.Erosion
import proofs.«111050_j86517821212128_2_alg».proof.Proof.LibSelectEq
import Idealize.ShloMosaic.Lib.KernelVsHost
import Idealize.ShloMosaic.Lib.ValueIdx
import Idealize.ShloMosaic.Lib.Pipeline.Value

noncomputable section

namespace Cert.KernelIdeal.BodyValue

open Idealize.ShloMosaic Idealize.ShloMosaic.ValueIdx Cert.KernelIdeal Cert.KernelIdeal.Gen Cert.Erosion Cert.LibSelectEq

/-- The border value: the number the word 0x4E6E6B28 denotes (10⁹). Its value is never used. -/
abbrev P : EReal := Ideal.ofBits .f32 0x4E6E6B28#32

/-- THE PASS ALONG THE COLUMNS at (p, r, c) is the three-tap window minimum of row r of image p, extended by the
    border value, at column c. -/
theorem colpass_apply (z : S16x256x256.Idx → EReal) (hrot : S16x256x256.Rotates 2 none) (hio : S16x256x256.Iotas .tc 32 [2])
    (p : Fin 16) (r c : Fin 256) :
    minimumf (F := Ideal) (φ := .f32) z (minimumf
      (select (cmpi .eq (iota .tc S16x256x256 32 [2] hio) (broadcast S16x256x256 0#32)) (broadcast S16x256x256 P) (dynamicRotate 2 1#32 none z hrot))
      (select (cmpi .eq (iota .tc S16x256x256 32 [2] hio) (broadcast S16x256x256 255#32)) (broadcast S16x256x256 P) (dynamicRotate 2 255#32 none z hrot)))
      (ix3 p r c)
    = win1 (fun c' => z (ix3 p r c')) P c.val := by
  have hc := c.isLt
  show min (z (ix3 p r c)) (min
      (Scalar.select (IntOp.cmpi .eq (iota .tc S16x256x256 32 [2] hio (ix3 p r c)) (BitVec.ofNat 32 0)) P (dynamicRotate 2 1#32 none z hrot (ix3 p r c)))
      (Scalar.select (IntOp.cmpi .eq (iota .tc S16x256x256 32 [2] hio (ix3 p r c)) (BitVec.ofNat 32 255)) P (dynamicRotate 2 255#32 none z hrot (ix3 p r c)))) = _
  rw [iota_single_apply]
  show min (z (ix3 p r c)) (min
      (Scalar.select (IntOp.cmpi .eq (BitVec.ofNat 32 c.val) (BitVec.ofNat 32 0)) P (dynamicRotate 2 1#32 none z hrot (ix3 p r c)))
      (Scalar.select (IntOp.cmpi .eq (BitVec.ofNat 32 c.val) (BitVec.ofNat 32 255)) P (dynamicRotate 2 255#32 none z hrot (ix3 p r c)))) = _
  rw [select_cmpi_eq _ _ (by omega) (by norm_num), select_cmpi_eq _ _ (by omega) (by norm_num)]
  have eC : pad1 (fun c' => z (ix3 p r c')) P (c.val + 1) = z (ix3 p r c) := by
    rw [pad1_in _ _ _ ⟨by omega, by omega⟩]
    exact congrArg (fun q => z (ix3 p r q)) (Fin.ext (by show c.val + 1 - 1 = c.val; omega))
  have eL : (if c.val = 0 then P else dynamicRotate 2 1#32 none z hrot (ix3 p r c)) = pad1 (fun c' => z (ix3 p r c')) P c.val := by
    by_cases h0 : c.val = 0
    · rw [if_pos h0, pad1_out _ _ _ (by omega)]
    · rw [if_neg h0, pad1_in _ _ _ ⟨by omega, by omega⟩]
      exact dynamicRotate_apply 2 1#32 z hrot (ix3 p r c) (ix3 p r ⟨c.val - 1, by omega⟩) (fun b => by
        match b with
        | ⟨0, _⟩ => split
                    · rename_i e; exact absurd (congrArg Fin.val e) (by show (0 : ℕ) ≠ 2; decide)
                    · rfl
        | ⟨1, _⟩ => split
                    · rename_i e; exact absurd (congrArg Fin.val e) (by show (1 : ℕ) ≠ 2; decide)
                    · rfl
        | ⟨2, _⟩ => split
                    · show c.val - 1 = (c.val + 256 - 1 % 256) % 256; omega
                    · rename_i e; exact absurd (Fin.ext rfl) e)
  have eR : (if c.val = 255 then P else dynamicRotate 2 255#32 none z hrot (ix3 p r c)) = pad1 (fun c' => z (ix3 p r c')) P (c.val + 2) := by
    by_cases h0 : c.val = 255
    · rw [if_pos h0, pad1_out _ _ _ (by omega)]
    · rw [if_neg h0, pad1_in _ _ _ ⟨by omega, by omega⟩]
      exact dynamicRotate_apply 2 255#32 z hrot (ix3 p r c) (ix3 p r ⟨c.val + 2 - 1, by omega⟩) (fun b => by
        match b with
        | ⟨0, _⟩ => split
                    · rename_i e; exact absurd (congrArg Fin.val e) (by show (0 : ℕ) ≠ 2; decide)
                    · rfl
        | ⟨1, _⟩ => split
                    · rename_i e; exact absurd (congrArg Fin.val e) (by show (1 : ℕ) ≠ 2; decide)
                    · rfl
        | ⟨2, _⟩ => split
                    · show c.val + 2 - 1 = (c.val + 256 - 255 % 256) % 256; omega
                    · rename_i e; exact absurd (Fin.ext rfl) e)
  rw [eL, eR]
  unfold win1
  rw [eC]

/-- THE PASS ALONG THE ROWS at (p, r, c) is the three-tap window minimum of column c of image p, extended by the
    border value, at row r. -/
theorem rowpass_apply (z : S16x256x256.Idx → EReal) (hrot : S16x256x256.Rotates 1 none) (hio : S16x256x256.Iotas .tc 32 [1])
    (p : Fin 16) (r c : Fin 256) :
    minimumf (F := Ideal) (φ := .f32) z (minimumf
      (select (cmpi .eq (iota .tc S16x256x256 32 [1] hio) (broadcast S16x256x256 0#32)) (broadcast S16x256x256 P) (dynamicRotate 1 1#32 none z hrot))
      (select (cmpi .eq (iota .tc S16x256x256 32 [1] hio) (broadcast S16x256x256 255#32)) (broadcast S16x256x256 P) (dynamicRotate 1 255#32 none z hrot)))
      (ix3 p r c)
    = win1 (fun r' => z (ix3 p r' c)) P r.val := by
  have hr := r.isLt
  show min (z (ix3 p r c)) (min
      (Scalar.select (IntOp.cmpi .eq (iota .tc S16x256x256 32 [1] hio (ix3 p r c)) (BitVec.ofNat 32 0)) P (dynamicRotate 1 1#32 none z hrot (ix3 p r c)))
      (Scalar.select (IntOp.cmpi .eq (iota .tc S16x256x256 32 [1] hio (ix3 p r c)) (BitVec.ofNat 32 255)) P (dynamicRotate 1 255#32 none z hrot (ix3 p r c)))) = _
  rw [iota_single_apply]
  show min (z (ix3 p r c)) (min
      (Scalar.select (IntOp.cmpi .eq (BitVec.ofNat 32 r.val) (BitVec.ofNat 32 0)) P (dynamicRotate 1 1#32 none z hrot (ix3 p r c)))
      (Scalar.select (IntOp.cmpi .eq (BitVec.ofNat 32 r.val) (BitVec.ofNat 32 255)) P (dynamicRotate 1 255#32 none z hrot (ix3 p r c)))) = _
  rw [select_cmpi_eq _ _ (by omega) (by norm_num), select_cmpi_eq _ _ (by omega) (by norm_num)]
  have eC : pad1 (fun r' => z (ix3 p r' c)) P (r.val + 1) = z (ix3 p r c) := by
    rw [pad1_in _ _ _ ⟨by omega, by omega⟩]
    exact congrArg (fun q => z (ix3 p q c)) (Fin.ext (by show r.val + 1 - 1 = r.val; omega))
  have eL : (if r.val = 0 then P else dynamicRotate 1 1#32 none z hrot (ix3 p r c)) = pad1 (fun r' => z (ix3 p r' c)) P r.val := by
    by_cases h0 : r.val = 0
    · rw [if_pos h0, pad1_out _ _ _ (by omega)]
    · rw [if_neg h0, pad1_in _ _ _ ⟨by omega, by omega⟩]
      exact dynamicRotate_apply 1 1#32 z hrot (ix3 p r c) (ix3 p ⟨r.val - 1, by omega⟩ c) (fun b => by
        match b with
        | ⟨0, _⟩ => split
                    · rename_i e; exact absurd (congrArg Fin.val e) (by show (0 : ℕ) ≠ 1; decide)
                    · rfl
        | ⟨1, _⟩ => split
                    · show r.val - 1 = (r.val + 256 - 1 % 256) % 256; omega
                    · rename_i e; exact absurd (Fin.ext rfl) e
        | ⟨2, _⟩ => split
                    · rename_i e; exact absurd (congrArg Fin.val e) (by show (2 : ℕ) ≠ 1; decide)
                    · rfl)
  have eR : (if r.val = 255 then P else dynamicRotate 1 255#32 none z hrot (ix3 p r c)) = pad1 (fun r' => z (ix3 p r' c)) P (r.val + 2) := by
    by_cases h0 : r.val = 255
    · rw [if_pos h0, pad1_out _ _ _ (by omega)]
    · rw [if_neg h0, pad1_in _ _ _ ⟨by omega, by omega⟩]
      exact dynamicRotate_apply 1 255#32 z hrot (ix3 p r c) (ix3 p ⟨r.val + 2 - 1, by omega⟩ c) (fun b => by
        match b with
        | ⟨0, _⟩ => split
                    · rename_i e; exact absurd (congrArg Fin.val e) (by show (0 : ℕ) ≠ 1; decide)
                    · rfl
        | ⟨1, _⟩ => split
                    · show r.val + 2 - 1 = (r.val + 256 - 255 % 256) % 256; omega
                    · rename_i e; exact absurd (Fin.ext rfl) e
        | ⟨2, _⟩ => split
                    · rename_i e; exact absurd (congrArg Fin.val e) (by show (2 : ℕ) ≠ 1; decide)
                    · rfl)
  rw [eL, eR]
  unfold win1
  rw [eC]

/-- THE BODY'S STORED VALUE at (p, r, c): the rows' pass of the columns' pass of the loaded block (its shape cast to
    its own shape is the identity), that is the separable erosion of image p at (r, c). -/
theorem pay_apply (x0 : Vec Ideal S16x256x256 .f32) (p : Fin 16) (r c : Fin 256) :
    k0_pay1 (F := Ideal) x0 (ix3 p r c) = sep (fun r' c' => x0 (ix3 p r' c')) P r.val c.val := by
  unfold k0_pay1
  dsimp only
  refine (rowpass_apply _ _ _ p r c).trans ?_
  unfold sep
  refine congrArg (fun f => win1 f P r.val) (funext fun r' => ?_)
  refine (colpass_apply _ _ _ p r' c).trans ?_
  rw [shapeCast_self]

end Cert.KernelIdeal.BodyValue

end
-- ==== Proof.Flatten.lean ====
/-
  Flattening the (batch, channel) pair into one axis of 16 · 64 = 1024 images and back does not touch an image: the
  entry (b, ch, r, c) of the `[16, 64, 256, 256]` array and the entry (64·b + ch, r, c) of the `[1024, 256, 256]`
  one have the same row-major position, ((64·b + ch)·256 + r)·256 + c. So eroding every image of the flattened array
  and unflattening is eroding every image of the array itself.
-/
import proofs.«111050_j86517821212128_2_alg».proof.Proof.Erosion
import Idealize.ShloMosaic.Lib.Pipeline.Value

noncomputable section

namespace Cert.Erosion

open Idealize.ShloMosaic Idealize.ShloMosaic.ValueIdx

/-- The array's shape and its flattened form. -/
abbrev S4 : Shape := ⟨4, ![16, 64, 256, 256]⟩
abbrev S3 : Shape := ⟨3, ![1024, 256, 256]⟩

/-- The flattened array at (q, r, c) with q = 64·b + ch is the array at (b, ch, r, c). -/
theorem flatten_apply {α : Type} (x : S4.Idx → α) (h : S4.ShapeCasts S3) (b : Fin 16) (ch : Fin 64) (r c : Fin 256)
    (q : Fin 1024) (hq : q.val = 64 * b.val + ch.val) : shapeCast S3 x h (ix3 q r c) = x (ix4 b ch r c) :=
  shapeCast_apply x h _ _ (by
    rw [Shape.rowMajor_val_three, Shape.rowMajor_val_four]
    show ((b.val * 64 + ch.val) * 256 + r.val) * 256 + c.val = (q.val * 256 + r.val) * 256 + c.val
    omega)

/-- And back: the unflattened array at (b, ch, r, c) is the flat one at (64·b + ch, r, c). -/
theorem unflatten_apply {α : Type} (y : S3.Idx → α) (h : S3.ShapeCasts S4) (b : Fin 16) (ch : Fin 64) (r c : Fin 256)
    (q : Fin 1024) (hq : q.val = 64 * b.val + ch.val) : shapeCast S4 y h (ix4 b ch r c) = y (ix3 q r c) :=
  shapeCast_apply y h _ _ (by
    rw [Shape.rowMajor_val_three, Shape.rowMajor_val_four]
    show (q.val * 256 + r.val) * 256 + c.val = ((b.val * 64 + ch.val) * 256 + r.val) * 256 + c.val
    omega)

/-- Erosion image by image commutes with the flattening: unflatten ∘ erode3 ∘ flatten = erode4. -/
theorem reshape_erode (P : EReal) (x : S4.Idx → EReal) (h1 : S4.ShapeCasts S3) (h2 : S3.ShapeCasts S4) :
    shapeCast S4 (erode3 P (shapeCast S3 x h1)) h2 = erode4 P x := by
  funext j
  obtain ⟨b, ch, r, c, rfl⟩ : ∃ b ch r c, j = ix4 b ch r c := ⟨j 0, j 1, j 2, j 3, eq_ix4 j⟩
  have hb := b.isLt
  have hch := ch.isLt
  rw [unflatten_apply _ h2 b ch r c ⟨64 * b.val + ch.val, by omega⟩ rfl]
  unfold erode3 erode4
  refine congrArg (fun f => sep f P r.val c.val) (funext fun r' => funext fun c' => ?_)
  exact flatten_apply x h1 b ch r' c' _ rfl

end Cert.Erosion

end
-- ==== Proof.Blocks.lean ====
/-
  From blocks to the array, and the whole run of the idealized kernel program.

  The program flattens the argument to `[1024, 256, 256]`, runs the body at 64 grid points — point t loads images
  16·t … 16·t + 15 (its block of the flattened array) and writes back the same rows of the result array — and
  unflattens the result. The body erodes each image of its block by itself (`BodyValue.pay_apply`), and an image lies
  whole inside one block, so what point t writes back is its block of ONE whole-array function, the erosion image by
  image of the flattened argument (`flushed_eq`); every image q is covered by point q / 16 (`cover`), so after the
  region the result array IS that function (`final`). The reshape before the region and the reshape after it are
  read off the run (`V_main_v0`, `tail_eq`), and flattening commutes with the erosion (`Erosion.reshape_erode`):
  the program's result is the erosion, image by image, of its argument (`run`).
-/
import proofs.«111050_j86517821212128_2_alg».proof.Proof.Gen.KernelIdeal.Frame
import proofs.«111050_j86517821212128_2_alg».proof.Proof.Body
import proofs.«111050_j86517821212128_2_alg».proof.Proof.Flatten
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Idealize.ShloMosaic Idealize.ShloMosaic.TcCoe Idealize.ShloMosaic.ValueIdx Idealize.SL.Sem
open Cert.KernelIdeal Cert.KernelIdeal.Gen Cert.Erosion Cert.KernelIdeal.BodyValue
open Idealize.ShloMosaic.Pipeline (Dat)

variable (m : (ℓ : Loc nD τ sig) → Buf (Elt Ideal) ℓ) (ρ : Dev nD → PrngReg)

/-- The body's one rectangle starts at the origin. -/
theorem hz : (![0, 0, 0] : Fin 3 → Nat) = fun _ => 0 := funext fun a => by fin_cases a <;> rfl

/-- The two windows' block indices, decided over the 64 points: both move along the image axis together, and
    neither moves along the rows or the columns. -/
theorem idx_facts : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 ∧ win0_1.index t (0 : Fin 3) < 64 :=
  (by decide +kernel : ∀ t : Fin grid0.N, _)

/-- Every one of the 64 blocks of 16 images is some point's. -/
theorem idx_onto : ∀ q : Fin 64, ∃ t : Fin cfg0.N, win0_1.index t = ![q.val, 0, 0] :=
  (by decide +kernel : ∀ q : Fin 64, ∃ t : Fin grid0.N, win0_1.index t = ![q.val, 0, 0])

/-- An index of the result array is in point `t`'s block iff each coordinate is in the block's range. -/
theorem mem_blk (t : Fin cfg0.N) (i : S1024x256x256.Idx) :
    i ∈ ((cfg0.win 1).blk t).view.set ↔ ∀ a : Fin 3, win0_1.index t a * S16x256x256.size a ≤ (i a).val
      ∧ (i a).val < win0_1.index t a * S16x256x256.size a + S16x256x256.size a := by
  show i ∈ ((View.whole main_v1).slice (win0_1.rect t)).set ↔ _
  rw [View.set_slice_whole, Rect.mem_set_unit]
  exact Iff.rfl

/-- Image q = i₀ of the result array is written back by the point whose block index is q / 16. -/
theorem cover (i : S1024x256x256.Idx) :
    ∃ t : Fin cfg0.N, (cfg0.win 1).flush t = true ∧ i ∈ ((cfg0.win 1).blk t).view.set := by
  have hi0 : (i 0).val < 1024 := (i 0).isLt
  have hi1 : (i 1).val < 256 := (i 1).isLt
  have hi2 : (i 2).val < 256 := (i 2).isLt
  obtain ⟨t, ht⟩ := idx_onto ⟨(i 0).val / 16, by omega⟩
  have q0 : win0_1.index t (0 : Fin 3) = (i 0).val / 16 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 16 ≤ (i 0).val ∧ (i 0).val < win0_1.index t (0 : Fin 3) * 16 + 16; omega
  | ⟨1, _⟩ => show win0_1.index t (1 : Fin 3) * 256 ≤ (i 1).val ∧ (i 1).val < win0_1.index t (1 : Fin 3) * 256 + 256; omega
  | ⟨2, _⟩ => show win0_1.index t (2 : Fin 3) * 256 ≤ (i 2).val ∧ (i 2).val < win0_1.index t (2 : Fin 3) * 256 + 256; omega

/-- The region finds, as its input array, the argument flattened. -/
theorem V_main_v0 (c : Dev nD) :
    (V m c main_v0 : S1024x256x256.Idx → EReal)
      = shapeCast S1024x256x256 (m ((c : Thread nD τ).loc main_arg0)) shapeCasts_S16x64x256x256_S1024x256x256 := by
  show StableHlo.after hostOps0 (fun b => m (c, b)) (Proc.devRef .tc main_v0) = _
  after_results
  rfl

/-- The body's stored value at any index of the block. -/
theorem pay_apply' (x0 : Vec Ideal S16x256x256 .f32) (j : S16x256x256.Idx) :
    k0_pay1 (F := Ideal) x0 j = sep (fun r' c' => x0 (ix3 (j 0) r' c')) P (j 1).val (j 2).val :=
  (congrArg (k0_pay1 (F := Ideal) x0) (eq_ix3 j)).trans (pay_apply x0 (j 0) (j 1) (j 2))

/-- WHAT POINT `t` WRITES BACK is its block of the erosion, image by image, of the input array: image p of the
    block is image 16·t + p of the array, read at the same rows and columns. -/
theorem flushed_eq (c : Dev nD) (t : Fin cfg0.N) :
    (dats (F := Ideal) m 0 c).flushed 1 t = ((cfg0.win 1).blk t).view.read (Elt Ideal) (erode3 P (V m c main_v0)) := by
  show (cfg0.win 1).cut (grid0.coords t) ((dats m 0 c).after 1 t) = _
  rw [after0_1]
  unfold out0_1
  rw [View.canon_unit_zero hz]
  simp only [View.ld_unit_zero (S := S16x256x256) hz]
  obtain ⟨e0, e1, e2, e3, e4, e5⟩ := idx_facts t
  funext j
  show k0_pay1 (iblk m c 0 t) j = erode3 P (V m c main_v0) (((cfg0.win 1).blk t).view.emb j)
  rw [pay_apply']
  unfold erode3
  have hj0 : (j 0).val < 16 := (j 0).isLt
  have hj1 : (j 1).val < 256 := (j 1).isLt
  have hj2 : (j 2).val < 256 := (j 2).isLt
  have h1 : ((((cfg0.win 1).blk t).view.emb j) 1).val = (j 1).val := by
    show win0_1.index t (1 : Fin 3) * 256 + 1 * (j 1).val = (j 1).val; omega
  have h2 : ((((cfg0.win 1).blk t).view.emb j) 2).val = (j 2).val := by
    show win0_1.index t (2 : Fin 3) * 256 + 1 * (j 2).val = (j 2).val; omega
  have hf : (fun (r' c' : Fin 256) => iblk m c 0 t (ix3 (j 0) r' c'))
      = fun r' c' => V m c main_v0 (ix3 ((((cfg0.win 1).blk t).view.emb j) 0) r' c') := by
    funext r' c'
    show V m c main_v0 (((cfg0.win 0).blk t).view.emb (ix3 (j 0) r' c')) = _
    refine congrArg (V m c main_v0) (funext fun a => Fin.ext ?_)
    have hr' : r'.val < 256 := r'.isLt
    have hc' : c'.val < 256 := c'.isLt
    match a with
    | ⟨0, _⟩ => show win0_0.index t (0 : Fin 3) * 16 + 1 * (j 0).val = win0_1.index t (0 : Fin 3) * 16 + 1 * (j 0).val; omega
    | ⟨1, _⟩ => show win0_0.index t (1 : Fin 3) * 256 + 1 * r'.val = r'.val; omega
    | ⟨2, _⟩ => show win0_0.index t (2 : Fin 3) * 256 + 1 * c'.val = c'.val; omega
  rw [hf, h1, h2]

/-- THE RESULT ARRAY after the region is the erosion, image by image, of the input array. -/
theorem final (c : Dev nD) : (dats (F := Ideal) m 0 c).arrAt 1 cfg0.N = erode3 P (V m c main_v0) :=
  (dats m 0 c).arrAt_eq_of_cover 1 _ (fun t _ => flushed_eq m c t) cover

/-- The program's result: the reshape after the region unflattens the result array. -/
theorem tail_eq (c : Dev nD) :
    (Pipeline.afterTail₀ cfgs (dats (F := Ideal) m) 0 (V0 m) [hostOps1] c main_v2 : S16x64x256x256.Idx → EReal)
      = shapeCast S16x64x256x256 (erode3 P (V m c main_v0)) shapeCasts_S1024x256x256_S16x64x256x256 := by
  unfold Pipeline.afterTail₀
  show StableHlo.after hostOps1 _ (Proc.devRef .tc main_v2) = _
  after_results
  refine funext fun i => ?_
  show shapeCast S16x64x256x256 (Pipeline.withArrays spec0 c (V0 m c) (fun w => (dats m 0 c).arrAt w cfg0.N)
    (Proc.devRef .tc (Pipeline.arrRef spec0 1))) shapeCasts_S1024x256x256_S16x64x256x256 i = _
  rw [Pipeline.withArrays_arr spec0 launch0.win.arr_inj c _ _ 1, final]

/-- The program's result is the erosion, image by image, of its argument. -/
theorem result_eq (c : Dev nD) :
    (Pipeline.afterTail₀ cfgs (dats (F := Ideal) m) 0 (V0 m) [hostOps1] c main_v2 : S16x64x256x256.Idx → EReal)
      = erode4 P (m ((c : Thread nD τ).loc main_arg0)) := by
  rw [tail_eq, V_main_v0]
  exact reshape_erode P _ _ _

/-- THE RUN of the idealized kernel program: every weakly fair execution terminates with the result at the erosion
    of the argument and the argument unchanged. -/
theorem run : θ_run defs (onTc (τ := τ) (main (F := Ideal))) ⟨m, fun _ => 0, ρ⟩ fun r => ∀ c : Dev nD,
      r.2.mem ((c : Thread nD τ).loc main_v2) = erode4 P (m ((c : Thread nD τ).loc main_arg0))
      ∧ r.2.mem ((c : Thread nD τ).loc main_arg0) = m ((c : Thread nD τ).loc main_arg0) :=
  (θ_run defs _ _).mono (fun r h c =>
    ⟨((h c).2 main_v2 (Pipeline.mem_restRefs_of main_v2 (by decide) (by decide))).trans (result_eq m c),
     ((h c).2 main_arg0 (Pipeline.mem_restRefs_of main_arg0 (by decide) (by decide))).trans (W_main_arg0 m (dats m) c)⟩)
    (run_main m ρ)

end Cert.KernelIdeal.ArrayValue

end
-- ==== Proof.RefWindow.lean ====
/-
  The reference at an index. Its program pads the `[16, 64, 256, 256]` array by one entry of the border value on
  each side of the two image axes and takes, at every position, the minimum over the 3 × 3 window of the padded array
  that starts there, folded from +∞ in row-major order over the window's nine positions.

  Read at (b, ch, r, c): window position n of the nine is (0, 0, n / 3, n % 3) — its row-major rank in a shape
  [1, 1, 3, 3] is 3·(n / 3) + n % 3 — so the fold reads the padded array at (b, ch, r + n / 3, c + n % 3), always
  inside it (`reduceWindow_apply`); the padded array at (b, ch, R, C) is the entry (R - 1, C - 1) of image (b, ch)
  when both lie in 1..256 and the border value otherwise, which is the extended image's tap (`pad_apply`); the
  word 0x7F800000 is +∞. Together: the reference's result is the direct erosion of every image, hence (the law of
  the specification) the separable one (`ref_eq`).
-/
import proofs.«111050_j86517821212128_2_alg».proof.Proof.Gen.ReferenceIdeal.Run
import proofs.«111050_j86517821212128_2_alg».proof.Proof.Erosion
import Idealize.ShloMosaic.Lib.KernelVsHost
import Idealize.ShloMosaic.Lib.ValueIdx

noncomputable section

namespace Cert.ReferenceIdeal.RefValue

open Idealize.ShloMosaic Idealize.ShloMosaic.ValueIdx Cert.ReferenceIdeal Cert.Erosion

/-- A left fold over `0, …, k - 1` depends on the length and on the values folded, not on how the length is spelt. -/
theorem foldl_finRange_congr {β γ : Type} {k k' : ℕ} (hk : k = k') (f : β → γ → β) (g : Fin k → γ) (g' : Fin k' → γ)
    (hg : ∀ n : Fin k, g n = g' (n.cast hk)) (v : β) :
    (List.finRange k).foldl (fun acc n => f acc (g n)) v = (List.finRange k').foldl (fun acc n => f acc (g' n)) v := by
  subst hk
  exact congrArg (fun G : Fin k → γ => (List.finRange k).foldl (fun acc n => f acc (G n)) v) (funext hg)

/-- The window: one batch entry, one channel, three rows, three columns. -/
abbrev W : Shape := ⟨4, ![1, 1, 3, 3]⟩

/-- It has nine positions. -/
theorem W_numel : W.numel = 9 := by decide

/-- Position `n` of the window in row-major order has coordinates (0, 0, n / 3, n % 3): its rank is
    ((w₀·1 + w₁)·3 + w₂)·3 + w₃ with w₀ = w₁ = 0 and w₂, w₃ < 3. -/
theorem W_coords (n : Fin W.numel) :
    (W.rowMajor.symm n 0).val = 0 ∧ (W.rowMajor.symm n 1).val = 0 ∧ (W.rowMajor.symm n 2).val = n.val / 3
      ∧ (W.rowMajor.symm n 3).val = n.val % 3 := by
  have h : n.val = (((W.rowMajor.symm n 0).val * 1 + (W.rowMajor.symm n 1).val) * 3 + (W.rowMajor.symm n 2).val) * 3
      + (W.rowMajor.symm n 3).val := by
    have := Shape.rowMajor_val_four (d := ![1, 1, 3, 3]) (W.rowMajor.symm n)
    rw [Equiv.apply_symm_apply] at this
    exact this
  have h0 : (W.rowMajor.symm n 0).val < 1 := (W.rowMajor.symm n 0).isLt
  have h1 : (W.rowMajor.symm n 1).val < 1 := (W.rowMajor.symm n 1).isLt
  have h2 : (W.rowMajor.symm n 2).val < 3 := (W.rowMajor.symm n 2).isLt
  have h3 : (W.rowMajor.symm n 3).val < 3 := (W.rowMajor.symm n 3).isLt
  omega

/-- The windowed minimum at (b, ch, r, c): the fold, from the initial value, of the minimum with the operand at
    (b, ch, r + n / 3, c + n % 3) over n = 0, …, 8. No window position falls outside the operand, whose image
    axes have 258 = 256 + 3 - 1 entries. -/
theorem reduceWindow_apply (xpad : S16x64x258x258.Idx → EReal) (init : S_.Idx → EReal)
    (h : S16x64x258x258.ReduceWindows (![1, 1, 3, 3] : Fin 4 → Nat) ![1, 1, 1, 1] ![0, 0, 0, 0] ![0, 0, 0, 0] S16x64x256x256)
    (hu : 0 < S_.numel) (b : Fin 16) (ch : Fin 64) (r c : Fin 256) :
    Host.reduceWindow (α := EReal) min ![1, 1, 3, 3] ![1, 1, 1, 1] ![0, 0, 0, 0] ![0, 0, 0, 0] xpad init h hu (ix4 b ch r c)
      = (List.finRange 9).foldl (fun acc n => min acc (xpad (ix4 b ch ⟨r.val + n.val / 3, by omega⟩ ⟨c.val + n.val % 3, by omega⟩))) (init ix0) := by
  unfold Host.reduceWindow
  dsimp only
  have hinit : init (Shape.Idx.first hu) = init ix0 := congrArg init (eq_ix0 _)
  rw [hinit]
  refine foldl_finRange_congr W_numel min _ _ (fun n => ?_) _
  obtain ⟨w0, w1, w2, w3⟩ := W_coords n
  have hn : n.val < 9 := lt_of_lt_of_eq n.isLt W_numel
  have hb := b.isLt; have hch := ch.isLt; have hr := r.isLt; have hc := c.isLt
  rw [dif_pos]
  · refine congrArg xpad (funext fun a => Fin.ext ?_)
    match a with
    | ⟨0, _⟩ => show b.val * 1 + (W.rowMajor.symm n 0).val - 0 = b.val; omega
    | ⟨1, _⟩ => show ch.val * 1 + (W.rowMajor.symm n 1).val - 0 = ch.val; omega
    | ⟨2, _⟩ => show r.val * 1 + (W.rowMajor.symm n 2).val - 0 = r.val + n.val / 3; omega
    | ⟨3, _⟩ => show c.val * 1 + (W.rowMajor.symm n 3).val - 0 = c.val + n.val % 3; omega
  · intro a
    match a with
    | ⟨0, _⟩ => exact ⟨Nat.zero_le _, by show b.val * 1 + (W.rowMajor.symm n 0).val - 0 < 16; omega⟩
    | ⟨1, _⟩ => exact ⟨Nat.zero_le _, by show ch.val * 1 + (W.rowMajor.symm n 1).val - 0 < 64; omega⟩
    | ⟨2, _⟩ => exact ⟨Nat.zero_le _, by show r.val * 1 + (W.rowMajor.symm n 2).val - 0 < 258; omega⟩
    | ⟨3, _⟩ => exact ⟨Nat.zero_le _, by show c.val * 1 + (W.rowMajor.symm n 3).val - 0 < 258; omega⟩

/-- The padded array at (b, ch, R, C) is the tap of image (b, ch) extended by the border value: entry
    (R - 1, C - 1) when 1 ≤ R, C ≤ 256, the padding value when either coordinate is 0 or 257. -/
theorem pad_apply (x : S16x64x256x256.Idx → EReal) (v : S_.Idx → EReal)
    (h : S16x64x256x256.Pads (![0, 0, 1, 1] : Fin 4 → Nat) ![0, 0, 1, 1] ![0, 0, 0, 0] S16x64x258x258) (hu : 0 < S_.numel)
    (b : Fin 16) (ch : Fin 64) (R C : Fin 258) :
    pad S16x64x258x258 ![0, 0, 1, 1] ![0, 0, 1, 1] ![0, 0, 0, 0] x v h hu (ix4 b ch R C)
      = tap (fun r' c' => x (ix4 b ch r' c')) (v ix0) R.val C.val := by
  have hv : v (Shape.Idx.first hu) = v ix0 := congrArg v (eq_ix0 _)
  unfold tap
  by_cases hR : 1 ≤ R.val ∧ R.val ≤ 256
  · by_cases hC : 1 ≤ C.val ∧ C.val ≤ 256
    · simp only [pad1_in _ _ _ hR, pad1_in _ _ _ hC]
      refine pad_apply_of_inside _ _ _ x v h hu _ _ (fun a => ?_)
      match a with
      | ⟨0, _⟩ => show b.val = 0 + b.val * (0 + 1); omega
      | ⟨1, _⟩ => show ch.val = 0 + ch.val * (0 + 1); omega
      | ⟨2, _⟩ => show R.val = 1 + (R.val - 1) * (0 + 1); omega
      | ⟨3, _⟩ => show C.val = 1 + (C.val - 1) * (0 + 1); omega
    · simp only [pad1_in _ _ _ hR, pad1_out _ _ _ hC]
      rw [← hv]
      refine pad_apply_of_not_inside _ _ _ x v h hu _ ⟨3, by decide⟩ (fun hin => hC ?_)
      have h1 : 1 ≤ C.val := hin.1
      have h2 : (C.val - 1) / (0 + 1) < 256 := hin.2.2
      omega
  · rw [pad1_out _ _ _ hR, ← hv]
    refine pad_apply_of_not_inside _ _ _ x v h hu _ ⟨2, by decide⟩ (fun hin => hR ?_)
    have h1 : 1 ≤ R.val := hin.1
    have h2 : (R.val - 1) / (0 + 1) < 256 := hin.2.2
    omega

/-- The word of the fold's initial value is +∞. -/
theorem inf_word : Ideal.ofBits .f32 0x7F800000#32 = (⊤ : EReal) := by simp [Ideal.ofBits, Ideal.ieee]

/-- THE REFERENCE'S RESULT is the separable erosion of every image with the border value the word 0x4E6E6B28
    (10⁹): index by index it is the direct erosion, and the two agree (`Erosion.win9_eq_sep`). -/
theorem ref_eq (x : S16x64x256x256.Idx → EReal)
    (hp : S16x64x256x256.Pads (![0, 0, 1, 1] : Fin 4 → Nat) ![0, 0, 1, 1] ![0, 0, 0, 0] S16x64x258x258)
    (hw : S16x64x258x258.ReduceWindows (![1, 1, 3, 3] : Fin 4 → Nat) ![1, 1, 1, 1] ![0, 0, 0, 0] ![0, 0, 0, 0] S16x64x256x256)
    (hu : 0 < S_.numel) (hb : S_.BroadcastsInDim S_ (![] : Fin 0 → Fin S_.rank)) :
    Host.reduceWindow (FloatOps.minimumf (F := Ideal) (φ := .f32)) ![1, 1, 3, 3] ![1, 1, 1, 1] ![0, 0, 0, 0] ![0, 0, 0, 0]
        (pad S16x64x258x258 ![0, 0, 1, 1] ![0, 0, 1, 1] ![0, 0, 0, 0] x (id (constant (F := Ideal) S_ .f32 0x4E6E6B28#32)) hp hu)
        (broadcastInDim S_ ![] hb (constant (F := Ideal) S_ .f32 0x7F800000#32)) hw hu
      = erode4 (Ideal.ofBits .f32 0x4E6E6B28#32) x := by
  funext j
  obtain ⟨b, ch, r, c, rfl⟩ : ∃ b ch r c, j = ix4 b ch r c := ⟨j 0, j 1, j 2, j 3, eq_ix4 j⟩
  refine (reduceWindow_apply _ _ hw hu b ch r c).trans ?_
  simp only [pad_apply]
  have htop : broadcastInDim S_ ![] hb (constant (F := Ideal) S_ .f32 0x7F800000#32) ix0 = (⊤ : EReal) := inf_word
  rw [htop]
  exact win9_eq_sep (fun r' c' => x (ix4 b ch r' c')) (Ideal.ofBits .f32 0x4E6E6B28#32) r.val c.val

end Cert.ReferenceIdeal.RefValue

end
-- ==== Proof.lean ====
/-
  Erosion of every 256 × 256 image of a `[16, 64, 256, 256]` array by the flat 3 × 3 window, the border read as the
  constant 10⁹ (the word 0x4E6E6B28, the same in both programs).

  The kernel flattens the 16 · 64 images into one axis, treats 16 images per grid point, and erodes SEPARABLY: a
  three-tap minimum along the columns, then a three-tap minimum along the rows of the result, a tap that would wrap
  around the image replaced by the border value. The reference pads every image with the border value and folds the
  minimum from +∞ over the nine taps of the 3 × 3 window. Over the extended reals these are one function
  (Proof/Erosion.lean): reading a border-extended line commutes with an entrywise minimum, and a minimum depends
  neither on the order or grouping of its arguments nor on a leading +∞. No entry needs to be finite for that, so the
  precondition is not used.

  The pieces: the reference at an index (Proof/RefWindow.lean), the kernel's body at an index (Proof/Body.lean), the
  blocks assembled into the array and the two reshapes around the region (Proof/Blocks.lean, Proof/Flatten.lean).
  Both runs are posted at the same function of the argument, `Erosion.erode4`, and the claims follow.
-/
import proofs.«111050_j86517821212128_2_alg».proof.Defs
import proofs.«111050_j86517821212128_2_alg».proof.Proof.Gen.Kernel
import proofs.«111050_j86517821212128_2_alg».proof.Proof.Gen.Kernel.Skeleton
import proofs.«111050_j86517821212128_2_alg».proof.Proof.Gen.Kernel.Launch
import proofs.«111050_j86517821212128_2_alg».proof.Proof.Gen.Kernel.Points
import proofs.«111050_j86517821212128_2_alg».proof.Proof.Gen.Kernel.Frame
import proofs.«111050_j86517821212128_2_alg».proof.Proof.Gen.KernelIdeal
import proofs.«111050_j86517821212128_2_alg».proof.Proof.Gen.KernelIdeal.Skeleton
import proofs.«111050_j86517821212128_2_alg».proof.Proof.Gen.KernelIdeal.Launch
import proofs.«111050_j86517821212128_2_alg».proof.Proof.Gen.KernelIdeal.Points
import proofs.«111050_j86517821212128_2_alg».proof.Proof.Gen.KernelIdeal.Frame
import proofs.«111050_j86517821212128_2_alg».proof.Proof.Gen.ReferenceIdeal
import proofs.«111050_j86517821212128_2_alg».proof.Proof.Gen.Pre_finite_inputs
import proofs.«111050_j86517821212128_2_alg».proof.Proof.Gen.ReferenceIdeal.Run
import proofs.«111050_j86517821212128_2_alg».proof.Proof.Blocks
import proofs.«111050_j86517821212128_2_alg».proof.Proof.RefWindow
import Idealize.ShloMosaic.Adequacy
import Idealize.ShloMosaic.Init

noncomputable section

namespace Cert.Proof

open Idealize.ShloMosaic Idealize.SL.Sem

/-- The word-level kernel program runs and leaves its argument as it was. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its argument as it was: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, the kernel program ends at the separable erosion of its argument and the reference at
    the direct erosion of the same array: one function. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact Cert.ReferenceIdeal.RefValue.ref_eq _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
